-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512 .f32) (main_arg12 : FVec F S512x512 .f32) (main_arg13 : FVec F S512x512 .f32) (main_arg14 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1024x512 : Shape := ⟨2, ![1024, 512]⟩
abbrev S1024x2048 : Shape := ⟨2, ![1024, 2048]⟩
abbrev S1x2048 : Shape := ⟨2, ![1, 2048]⟩

abbrev nBuf : Space → Nat
  | .hbm => 22
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512x512, .f32⟩
  | .hbm, ⟨14, _⟩ => ⟨S512, .f32⟩
  | .hbm, ⟨15, _⟩ => ⟨S512x2048, .f32⟩
  | .hbm, ⟨16, _⟩ => ⟨S512x2048, .bf16⟩
  | .hbm, ⟨17, _⟩ => ⟨S512x2048, .f32⟩
  | .hbm, ⟨18, _⟩ => ⟨S512x2048, .bf16⟩
  | .hbm, ⟨19, _⟩ => ⟨S2048, .f32⟩
  | .hbm, ⟨20, _⟩ => ⟨S16384x512, .f32⟩
  | .hbm, ⟨21, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S2048, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512_S512_S512_S512_S2048_d0 : Shape.Concatenates [S512, S512, S512, S512] S2048 0
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S1024x2048 : S1x2048.Broadcasts S1024x2048
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512x512, .f32⟩
  | .hbm, ⟨14, _⟩ => ⟨S512, .f32⟩
  | .hbm, ⟨15, _⟩ => ⟨S512x2048, .f32⟩
  | .hbm, ⟨16, _⟩ => ⟨S512x2048, .f32⟩
  | .hbm, ⟨17, _⟩ => ⟨S2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.FrameBits.lean ====
/-
  The frame of `Kernel`: its @main — three concatenations and two casts on the host, then one region over a
  grid of 16 points — terminates from every launch memory, faults nowhere and leaves the fifteen argument arrays as
  launched; and what the two result arrays hold at the end, as the region's proof data says it.

  The region's body reads six input blocks (rows 1024·t … 1024·t+1023 of the three batch arrays; the two fused weight
  matrices and the fused bias whole, fetched once) and stores two output blocks whole; it keeps nothing between
  points. So the proof data is: each input's staging buffer holds its block at every point, each output's holds the
  body's stored value of the six input blocks (`outH`, `outC`: one covering store each). The body's triple is run
  symbolically on the body's skeleton; the launch is the library's frame run.
-/
import proofs.«179212_j21234318311760_2_alg».proof.Proof.Gen.Kernel.Launch
import proofs.«179212_j21234318311760_2_alg».proof.Proof.Gen.Kernel.Skeleton
import proofs.«179212_j21234318311760_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the five buffers `main_v0 … main_v4` only: any other buffer is found as launched. -/
theorem V_of_ne (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (unfetched, its block index has not moved), for proof data whose array is the region-entry one and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (unfetched, its block index has not moved), for proof data whose array is the region-entry one and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (unfetched, its block index has not moved), for proof data whose array is the region-entry one and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not
    (unfetched, its block index has not moved), for proof data whose array is the region-entry one and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not
    (unfetched, its block index has not moved), for proof data whose array is the region-entry one and whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not
    (unfetched, its block index has not moved), for proof data whose array is the region-entry one and whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rRow : Rect S1024x512 := Rect.unit (s := S1024x512) ![0, 0] S1024x512.size inb_S1024x512_S1024x512_0_0
abbrev rMat : Rect S512x2048 := Rect.unit (s := S512x2048) ![0, 0] S512x2048.size inb_S512x2048_S512x2048_0_0
abbrev rBias : Rect S2048 := Rect.unit (s := S2048) ![0] S2048.size inb_S2048_S2048_0

/-- The first result's staging buffer after the body (the new hidden state's block): one store, of the body's last
    payload of the six input blocks. -/
def outH (x0 x1 x2 : Vec F S1024x512 .f32) (x3 x4 : Vec F S512x2048 .bf16) (x5 : Vec F S2048 .f32) : Vec F S1024x512 .f32 :=
  View.canon [⟨rRow, k0_pay3 (View.ld x0 rRow) (View.ld x1 rRow) (View.ld x2 rRow) (View.ld x3 rMat) (View.ld x4 rMat) (View.ld x5 rBias)⟩]

/-- The second result's staging buffer after the body (the new cell state's block). -/
def outC (x0 x1 x2 : Vec F S1024x512 .f32) (x3 x4 : Vec F S512x2048 .bf16) (x5 : Vec F S2048 .f32) : Vec F S1024x512 .f32 :=
  View.canon [⟨rRow, k0_pay2 (View.ld x0 rRow) (View.ld x1 rRow) (View.ld x2 rRow) (View.ld x3 rMat) (View.ld x4 rMat) (View.ld x5 rBias)⟩]

/-- The one store of an output covers its buffer. -/
theorem cover_row (p0 : Vec F S1024x512 .f32) (y : S1024x512.Idx) :
    ∃ pc ∈ ([⟨rRow, p0⟩] : List (View.Piece (Elt F) S1024x512 .f32)), y ∈ pc.1.set :=
  View.cover_of_tiled [⟨rRow, p0⟩] S1024x512.size (by rfl) y

/-! ## The body's triple -/

set_option maxHeartbeats 1000000 in
/-- The body on whole staging memrefs — the six inputs' at known contents, the two outputs' at anything — runs to the
    continuation with the inputs' as they were and the outputs' at `outH`, `outC` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S2048 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_row _)
  iexists _; isplitr
  swap; · iexact H7
  ipureintro
  exact View.read_writes_eq_canon _ _ _ (cover_row _)

/-! ## The proof data -/

/-- The region's proof data on core `c`: the arrays as the region finds them; after the body at point `t` each input's
    buffer at its block and each output's at the body's stored value of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and at the end every
    array of the region holds what the library computes from the proof data and every other unscoped buffer what the
    region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's post read at the fifteen argument arrays: the three batch arrays are staged inputs (their final contents
    the entry contents), the twelve others no window's array; each was found as launched. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  have rest : ∀ (b : Ref sig .tc) (hs : b.isScoped = false) (ha : ∀ w, (spec0 w).arr.view.ref ≠ b)
      (h0 : b ≠ main_v0) (h1 : b ≠ main_v1) (h2 : b ≠ main_v2) (h3 : b ≠ main_v3) (h4 : b ≠ main_v4),
      r.2.mem ((c.tc : Thread nD τ).loc b) = m ((c.tc : Thread nD τ).loc b) := fun b hs ha h0 h1 h2 h3 h4 =>
    ((h c).2 b (Pipeline.mem_restRefs_of b hs ha)).trans (V_of_ne m c b h0 h1 h2 h3 h4)
  ⟨((h c).1 0).trans (((dats m 0 c).arrAt_in 0 rfl _).trans ((A_eq m c 0).trans (V_of_ne m c main_arg0 (by decide) (by decide) (by decide) (by decide) (by decide)))),
    ((h c).1 1).trans (((dats m 0 c).arrAt_in 1 rfl _).trans ((A_eq m c 1).trans (V_of_ne m c main_arg1 (by decide) (by decide) (by decide) (by decide) (by decide)))),
    ((h c).1 2).trans (((dats m 0 c).arrAt_in 2 rfl _).trans ((A_eq m c 2).trans (V_of_ne m c main_arg2 (by decide) (by decide) (by decide) (by decide) (by decide)))),
    rest main_arg3 (by decide) (by decide) (by decide) (by decide) (by decide) (by decide) (by decide),
    rest main_arg4 (by decide) (by decide) (by decide) (by decide) (by decide) (by decide) (by decide),
    rest main_arg5 (by decide) (by decide) (by decide) (by decide) (by decide) (by decide) (by decide),
    rest main_arg6 (by decide) (by decide) (by decide) (by decide) (by decide) (by decide) (by decide),
    rest main_arg7 (by decide) (by decide) (by decide) (by decide) (by decide) (by decide) (by decide),
    rest main_arg8 (by decide) (by decide) (by decide) (by decide) (by decide) (by decide) (by decide),
    rest main_arg9 (by decide) (by decide) (by decide) (by decide) (by decide) (by decide) (by decide),
    rest main_arg10 (by decide) (by decide) (by decide) (by decide) (by decide) (by decide) (by decide),
    rest main_arg11 (by decide) (by decide) (by decide) (by decide) (by decide) (by decide) (by decide),
    rest main_arg12 (by decide) (by decide) (by decide) (by decide) (by decide) (by decide) (by decide),
    rest main_arg13 (by decide) (by decide) (by decide) (by decide) (by decide) (by decide) (by decide),
    rest main_arg14 (by decide) (by decide) (by decide) (by decide) (by decide) (by decide) (by decide)⟩

/-- The frame: @main terminates without a fault and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.Kernel.Frm

end
-- ==== Proof.FrameIdeal.lean ====
/-
  The frame of `KernelIdeal`: its @main — three concatenations and two casts on the host, then one region over a
  grid of 16 points — terminates from every launch memory, faults nowhere and leaves the fifteen argument arrays as
  launched; and what the two result arrays hold at the end, as the region's proof data says it.

  The region's body reads six input blocks (rows 1024·t … 1024·t+1023 of the three batch arrays; the two fused weight
  matrices and the fused bias whole, fetched once) and stores two output blocks whole; it keeps nothing between
  points. So the proof data is: each input's staging buffer holds its block at every point, each output's holds the
  body's stored value of the six input blocks (`outH`, `outC`: one covering store each). The body's triple is run
  symbolically on the body's skeleton; the launch is the library's frame run.
-/
import proofs.«179212_j21234318311760_2_alg».proof.Proof.Gen.KernelIdeal.Launch
import proofs.«179212_j21234318311760_2_alg».proof.Proof.Gen.KernelIdeal.Skeleton
import proofs.«179212_j21234318311760_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the five buffers `main_v0 … main_v4` only: any other buffer is found as launched. -/
theorem V_of_ne (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (unfetched, its block index has not moved), for proof data whose array is the region-entry one and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (unfetched, its block index has not moved), for proof data whose array is the region-entry one and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (unfetched, its block index has not moved), for proof data whose array is the region-entry one and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not
    (unfetched, its block index has not moved), for proof data whose array is the region-entry one and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not
    (unfetched, its block index has not moved), for proof data whose array is the region-entry one and whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not
    (unfetched, its block index has not moved), for proof data whose array is the region-entry one and whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rRow : Rect S1024x512 := Rect.unit (s := S1024x512) ![0, 0] S1024x512.size inb_S1024x512_S1024x512_0_0
abbrev rMat : Rect S512x2048 := Rect.unit (s := S512x2048) ![0, 0] S512x2048.size inb_S512x2048_S512x2048_0_0
abbrev rBias : Rect S2048 := Rect.unit (s := S2048) ![0] S2048.size inb_S2048_S2048_0

/-- The first result's staging buffer after the body (the new hidden state's block): one store, of the body's last
    payload of the six input blocks. -/
def outH (x0 x1 x2 : Vec F S1024x512 .f32) (x3 x4 : Vec F S512x2048 .bf16) (x5 : Vec F S2048 .f32) : Vec F S1024x512 .f32 :=
  View.canon [⟨rRow, k0_pay3 (View.ld x0 rRow) (View.ld x1 rRow) (View.ld x2 rRow) (View.ld x3 rMat) (View.ld x4 rMat) (View.ld x5 rBias)⟩]

/-- The second result's staging buffer after the body (the new cell state's block). -/
def outC (x0 x1 x2 : Vec F S1024x512 .f32) (x3 x4 : Vec F S512x2048 .bf16) (x5 : Vec F S2048 .f32) : Vec F S1024x512 .f32 :=
  View.canon [⟨rRow, k0_pay2 (View.ld x0 rRow) (View.ld x1 rRow) (View.ld x2 rRow) (View.ld x3 rMat) (View.ld x4 rMat) (View.ld x5 rBias)⟩]

/-- The one store of an output covers its buffer. -/
theorem cover_row (p0 : Vec F S1024x512 .f32) (y : S1024x512.Idx) :
    ∃ pc ∈ ([⟨rRow, p0⟩] : List (View.Piece (Elt F) S1024x512 .f32)), y ∈ pc.1.set :=
  View.cover_of_tiled [⟨rRow, p0⟩] S1024x512.size (by rfl) y

/-! ## The body's triple -/

set_option maxHeartbeats 1000000 in
/-- The body on whole staging memrefs — the six inputs' at known contents, the two outputs' at anything — runs to the
    continuation with the inputs' as they were and the outputs' at `outH`, `outC` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S2048 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_row _)
  iexists _; isplitr
  swap; · iexact H7
  ipureintro
  exact View.read_writes_eq_canon _ _ _ (cover_row _)

/-! ## The proof data -/

/-- The region's proof data on core `c`: the arrays as the region finds them; after the body at point `t` each input's
    buffer at its block and each output's at the body's stored value of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and at the end every
    array of the region holds what the library computes from the proof data and every other unscoped buffer what the
    region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's post read at the fifteen argument arrays: the three batch arrays are staged inputs (their final contents
    the entry contents), the twelve others no window's array; each was found as launched. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  have rest : ∀ (b : Ref sig .tc) (hs : b.isScoped = false) (ha : ∀ w, (spec0 w).arr.view.ref ≠ b)
      (h0 : b ≠ main_v0) (h1 : b ≠ main_v1) (h2 : b ≠ main_v2) (h3 : b ≠ main_v3) (h4 : b ≠ main_v4),
      r.2.mem ((c.tc : Thread nD τ).loc b) = m ((c.tc : Thread nD τ).loc b) := fun b hs ha h0 h1 h2 h3 h4 =>
    ((h c).2 b (Pipeline.mem_restRefs_of b hs ha)).trans (V_of_ne m c b h0 h1 h2 h3 h4)
  ⟨((h c).1 0).trans (((dats m 0 c).arrAt_in 0 rfl _).trans ((A_eq m c 0).trans (V_of_ne m c main_arg0 (by decide) (by decide) (by decide) (by decide) (by decide)))),
    ((h c).1 1).trans (((dats m 0 c).arrAt_in 1 rfl _).trans ((A_eq m c 1).trans (V_of_ne m c main_arg1 (by decide) (by decide) (by decide) (by decide) (by decide)))),
    ((h c).1 2).trans (((dats m 0 c).arrAt_in 2 rfl _).trans ((A_eq m c 2).trans (V_of_ne m c main_arg2 (by decide) (by decide) (by decide) (by decide) (by decide)))),
    rest main_arg3 (by decide) (by decide) (by decide) (by decide) (by decide) (by decide) (by decide),
    rest main_arg4 (by decide) (by decide) (by decide) (by decide) (by decide) (by decide) (by decide),
    rest main_arg5 (by decide) (by decide) (by decide) (by decide) (by decide) (by decide) (by decide),
    rest main_arg6 (by decide) (by decide) (by decide) (by decide) (by decide) (by decide) (by decide),
    rest main_arg7 (by decide) (by decide) (by decide) (by decide) (by decide) (by decide) (by decide),
    rest main_arg8 (by decide) (by decide) (by decide) (by decide) (by decide) (by decide) (by decide),
    rest main_arg9 (by decide) (by decide) (by decide) (by decide) (by decide) (by decide) (by decide),
    rest main_arg10 (by decide) (by decide) (by decide) (by decide) (by decide) (by decide) (by decide),
    rest main_arg11 (by decide) (by decide) (by decide) (by decide) (by decide) (by decide) (by decide),
    rest main_arg12 (by decide) (by decide) (by decide) (by decide) (by decide) (by decide) (by decide),
    rest main_arg13 (by decide) (by decide) (by decide) (by decide) (by decide) (by decide) (by decide),
    rest main_arg14 (by decide) (by decide) (by decide) (by decide) (by decide) (by decide) (by decide)⟩

/-- The frame: @main terminates without a fault and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.KernelIdeal.Frm

end
-- ==== Proof.Spec.lean ====
/-
  One step of an LSTM cell over a batch of 16384 rows with 512 features and 512 units, as a function of its arrays,
  index by index, on the extended reals.

  With `W`, `U` the fused gate weights ([512, 2048]: the input, forget, candidate and output gates' 512 columns side
  by side) and `b` the fused bias, row `r` has the pre-activations
      z r j = ∑ k, x r k · W k j + ∑ k, h r k · U k j + b j          (j < 2048),
  and for unit `q < 512`
      c' r q = σ (z r (512 + q)) · c r q + σ (z r q) · tanh (z r (1024 + q)),
      h' r q = σ (z r (1536 + q)) · tanh (c' r q),
  σ the logistic function. A row's values depend on that row of `x`, `h`, `c` only: the functions below take the row
  as two vectors and one entry, so that a block of rows and the whole batch are read by the same terms.
-/
import Idealize.ShloMosaic.PureOps.Ideal
import Idealize.ShloMosaic.Lib.ValueIdx

noncomputable section

namespace Cert.Lstm

open Idealize.ShloMosaic Idealize.ShloMosaic.ValueIdx

/-- The fused weights, the fused bias, a batch array, a block of 1024 rows of one. -/
abbrev Mat : Type := (⟨2, ![512, 2048]⟩ : Shape).Idx → EReal
abbrev Bias : Type := (⟨1, ![2048]⟩ : Shape).Idx → EReal
abbrev Batch : Type := (⟨2, ![16384, 512]⟩ : Shape).Idx → EReal
abbrev Tile : Type := (⟨2, ![1024, 512]⟩ : Shape).Idx → EReal

/-- The float word of `1.0` denotes `1`. -/
theorem ofBits_one : Ideal.ofBits .f32 0x3F800000#32 = 1 := by
  simp [Ideal.ofBits, Ideal.ieee, -EReal.coe_mul]; norm_num

/-- Column `o + q` of the fused arrays: unit `q` of the gate whose columns start at `o`. -/
def gcol (o : Nat) (ho : o + 512 ≤ 2048) (q : Fin 512) : Fin 2048 := ⟨o + q.val, by have := q.isLt; omega⟩

/-- A row's pre-activation in fused column `j`. -/
def pre (xr hr : Fin 512 → EReal) (W U : Mat) (b : Bias) (j : Fin 2048) : EReal :=
  (∑ k : Fin 512, xr k * W (ix2 k j)) + (∑ k : Fin 512, hr k * U (ix2 k j)) + b (ix1 j)

/-- The new cell state of unit `q` of a row with old cell state `cv` there. -/
def cellAt (xr hr : Fin 512 → EReal) (cv : EReal) (W U : Mat) (b : Bias) (q : Fin 512) : EReal :=
  Ideal.logistic (pre xr hr W U b (gcol 512 (by decide) q)) * cv
    + Ideal.logistic (pre xr hr W U b (gcol 0 (by decide) q)) * Ideal.tanh (pre xr hr W U b (gcol 1024 (by decide) q))

/-- The new hidden state of unit `q` of that row. -/
def hidAt (xr hr : Fin 512 → EReal) (cv : EReal) (W U : Mat) (b : Bias) (q : Fin 512) : EReal :=
  Ideal.logistic (pre xr hr W U b (gcol 1536 (by decide) q)) * Ideal.tanh (cellAt xr hr cv W U b q)

/-- The new cell state over the whole batch. -/
def cellNew (x h c : Batch) (W U : Mat) (b : Bias) : Batch := fun i =>
  cellAt (fun k => x (ix2 (⟨(i 0).val, (i 0).isLt⟩ : Fin 16384) k)) (fun k => h (ix2 (⟨(i 0).val, (i 0).isLt⟩ : Fin 16384) k)) (c i) W U b
    ⟨(i 1).val, (i 1).isLt⟩

/-- The new hidden state over the whole batch. -/
def hidNew (x h c : Batch) (W U : Mat) (b : Bias) : Batch := fun i =>
  hidAt (fun k => x (ix2 (⟨(i 0).val, (i 0).isLt⟩ : Fin 16384) k)) (fun k => h (ix2 (⟨(i 0).val, (i 0).isLt⟩ : Fin 16384) k)) (c i) W U b
    ⟨(i 1).val, (i 1).isLt⟩

theorem cellNew_ix2 (x h c : Batch) (W U : Mat) (b : Bias) (r : Fin 16384) (q : Fin 512) :
    cellNew x h c W U b (ix2 r q) = cellAt (fun k => x (ix2 r k)) (fun k => h (ix2 r k)) (c (ix2 r q)) W U b q := rfl

theorem hidNew_ix2 (x h c : Batch) (W U : Mat) (b : Bias) (r : Fin 16384) (q : Fin 512) :
    hidNew x h c W U b (ix2 r q) = hidAt (fun k => x (ix2 r k)) (fun k => h (ix2 r k)) (c (ix2 r q)) W U b q := rfl

end Cert.Lstm

end
-- ==== Proof.KernelValue.lean ====
/-
  The kernel body's two stored values, read at an index of the block, are the LSTM step of that row of the blocks:
  the body multiplies the row block of `x` and of `h` by the whole fused weights (two products onto a zero
  accumulator, each a sum over the 512 contracted coordinates), adds the bias row, cuts the 2048 columns into the four
  gates' 512 and combines them pointwise. Changes of float format are the identity on the extended reals.
-/
import proofs.«179212_j21234318311760_2_alg».proof.Proof.Gen.KernelIdeal.Skeleton
import proofs.«179212_j21234318311760_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.Lstm
open Idealize.ShloMosaic Idealize.ShloMosaic.ValueIdx

/-- The body's matrix product's dimension numbers: rows × contraction times contraction × columns. -/
abbrev D := dot_S1024x512_S512x2048_S1024x2048_1_0_0_1_n_n

theorem lhs0 (i : S1024x2048.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs1 (i : S1024x2048.Idx) (q : D.contr.Idx) : (D.lhsIdx i q 1).val = (q ⟨0, by decide⟩).val :=
  D.lhsIdx_val_of_single rfl i q
theorem rhs0 (i : S1024x2048.Idx) (q : D.contr.Idx) : (D.rhsIdx i q 0).val = (q ⟨0, by decide⟩).val :=
  D.rhsIdx_val_of_single rfl i q
theorem rhs1 (i : S1024x2048.Idx) (q : D.contr.Idx) : (D.rhsIdx i q 1).val = (i 1).val := by
  unfold DotDims.rhsIdx
  rw [dif_neg (show ¬(1 : Fin S512x2048.rank) ∈ D.rhsBatch by decide), dif_pos (show (1 : Fin S512x2048.rank) ∈ D.rhsNonContracting by decide)]
  rfl

/-- The body's product onto the zero accumulator, at row `p` and column `j`: the sum over the contracted coordinate. -/
theorem matmul_at (lhs : FVec Ideal S1024x512 .bf16) (rhs : FVec Ideal S512x2048 .bf16) (p : Fin 1024) (j : Fin 2048) :
    matmul D none lhs rhs (constant (F := Ideal) S1024x2048 .f32 0x00000000#32) (ix2 p j)
      = ∑ k : Fin 512, lhs (ix2 p k) * rhs (ix2 k j) := by
  refine (Ideal.matmul_constant_zero_apply D none lhs rhs (ix2 p j)).trans ?_
  rw [← Equiv.sum_comp (contrEquiv1 D 512 rfl rfl).symm]
  refine Finset.sum_congr rfl fun k _ => ?_
  have hk := contrEquiv1_symm_val D 512 rfl rfl k
  have el : D.lhsIdx (ix2 p j) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p j) ((contrEquiv1 D 512 rfl rfl).symm k) = ix2 k j := funext fun a => Fin.ext (by
    match a with
    | ⟨0, _⟩ => exact (rhs0 _ _).trans hk
    | ⟨1, _⟩ => exact rhs1 _ _)
  rw [el, er]

/-- The pre-activations the body computes, at row `p` of the block and fused column `j`. -/
theorem pay1_apply (v0 v2 : Vec Ideal S1024x512 .f32) (v5 v8 : Vec Ideal S512x2048 .bf16) (v12 : Vec Ideal S2048 .f32)
    (p : Fin 1024) (j : Fin 2048) :
    k0_pay1 v0 v2 v5 v8 v12 (ix2 p j) = pre (fun k => v0 (ix2 p k)) (fun k => v2 (ix2 p k)) v5 v8 v12 j := by
  unfold k0_pay1 pre
  refine (addf_apply _ _ _).trans (congrArg₂ (· + ·) ((addf_apply _ _ _).trans (congrArg₂ (· + ·) ?_ ?_)) ?_)
  · refine (matmul_at _ _ p j).trans (Finset.sum_congr rfl fun k _ => ?_)
    exact congrArg₂ (· * ·) rfl (congrFun (shapeCast_self v5 _) _)
  · refine (matmul_at _ _ p j).trans (Finset.sum_congr rfl fun k _ => ?_)
    exact congrArg₂ (· * ·) rfl (congrFun (shapeCast_self v8 _) _)
  · exact (broadcastTo_1b_ab_apply _ _ p j).trans ((shapeCast_a_1a_apply _ _ 0 j).trans (congrFun (shapeCast_self v12 _) _))

/-- The body's stored new cell state, at row `p` of the block and unit `q`. -/
theorem pay2_apply (v0 v2 v4 : Vec Ideal S1024x512 .f32) (v5 v8 : Vec Ideal S512x2048 .bf16) (v12 : Vec Ideal S2048 .f32)
    (p : Fin 1024) (q : Fin 512) :
    k0_pay2 v0 v2 v4 v5 v8 v12 (ix2 p q)
      = cellAt (fun k => v0 (ix2 p k)) (fun k => v2 (ix2 p k)) (v4 (ix2 p q)) v5 v8 v12 q := by
  unfold k0_pay2 cellAt
  refine (addf_apply _ _ _).trans (congrArg₂ (· + ·) ((mulf_apply _ _ _).trans (congrArg₂ (· * ·) ?_ rfl))
    ((mulf_apply _ _ _).trans (congrArg₂ (· * ·) ?_ ?_)))
  · exact congrArg Ideal.logistic ((slice2_axis1_eq 512 _ _ p q).trans (pay1_apply v0 v2 v5 v8 v12 p _))
  · exact congrArg Ideal.logistic ((slice2_axis1_eq 0 _ _ p q).trans (pay1_apply v0 v2 v5 v8 v12 p _))
  · exact congrArg Ideal.tanh ((slice2_axis1_eq 1024 _ _ p q).trans (pay1_apply v0 v2 v5 v8 v12 p _))

/-- The body's stored new hidden state, at row `p` of the block and unit `q`. -/
theorem pay3_apply (v0 v2 v4 : Vec Ideal S1024x512 .f32) (v5 v8 : Vec Ideal S512x2048 .bf16) (v12 : Vec Ideal S2048 .f32)
    (p : Fin 1024) (q : Fin 512) :
    k0_pay3 v0 v2 v4 v5 v8 v12 (ix2 p q)
      = hidAt (fun k => v0 (ix2 p k)) (fun k => v2 (ix2 p k)) (v4 (ix2 p q)) v5 v8 v12 q := by
  unfold k0_pay3 hidAt
  refine (mulf_apply _ _ _).trans (congrArg₂ (· * ·) ?_ ?_)
  · exact congrArg Ideal.logistic ((slice2_axis1_eq 1536 _ _ p q).trans (pay1_apply v0 v2 v5 v8 v12 p _))
  · exact congrArg Ideal.tanh (pay2_apply v0 v2 v4 v5 v8 v12 p q)

end Cert.KernelIdeal.Val

end
-- ==== Proof.KernelRun.lean ====
/-
  What the kernel's two result arrays hold after the run, at the extended reals: the new hidden state and the new
  cell state of the specification, of the batch arrays as launched and of the fused weights and bias the host
  operations before the region concatenate (their cast to bf16 the identity here).

  Grid point `t` handles rows 1024·t … 1024·t + 1023: its blocks of the three batch arrays and of the two results are
  those rows, its blocks of the fused weights and bias the whole arrays. A row of the new states depends on that row
  only, so what point `t` writes back is block `t` of the whole-batch function; the sixteen blocks tile the result
  arrays (row `r` lies in the block of point `r / 1024`).
-/
import proofs.«179212_j21234318311760_2_alg».proof.Proof.FrameIdeal
import proofs.«179212_j21234318311760_2_alg».proof.Proof.KernelValue
import Idealize.ShloMosaic.Lib.Pipeline.Value
import Idealize.ShloMosaic.Lib.StableHlo.Run

set_option maxRecDepth 16384

noncomputable section

namespace Cert.KernelIdeal.Run

open Cert.KernelIdeal Cert.KernelIdeal.Gen Cert.KernelIdeal.Frm Cert.KernelIdeal.Val Cert.Lstm
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The stored values are the payloads -/

theorem outC_eq (x0 x1 x2 : Vec Ideal S1024x512 .f32) (x3 x4 : Vec Ideal S512x2048 .bf16) (x5 : Vec Ideal S2048 .f32) :
    outC x0 x1 x2 x3 x4 x5 = k0_pay2 x0 x1 x2 x3 x4 x5 := by
  unfold outC
  rw [View.canon_unit_zero hz2]
  simp only [View.ld_unit_zero (S := S1024x512) hz2, View.ld_unit_zero (S := S512x2048) hz2, View.ld_unit_zero (S := S2048) hz1]

theorem outH_eq (x0 x1 x2 : Vec Ideal S1024x512 .f32) (x3 x4 : Vec Ideal S512x2048 .bf16) (x5 : Vec Ideal S2048 .f32) :
    outH x0 x1 x2 x3 x4 x5 = k0_pay3 x0 x1 x2 x3 x4 x5 := by
  unfold outH
  rw [View.canon_unit_zero hz2]
  simp only [View.ld_unit_zero (S := S1024x512) hz2, View.ld_unit_zero (S := S512x2048) hz2, View.ld_unit_zero (S := S2048) hz1]

/-! ## The index maps -/

/-- The printed index maps over the grid: the batch arrays' and the results' blocks move with the point along the
    rows; the fused weights' and bias's block is the whole array at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `1024·t + p` of the batch. -/
def row (t : Fin cfg0.N) (p : Fin 1024) : Fin 16384 :=
  ⟨t.val * 1024 + p.val, by have h1 := t.isLt; have h2 : cfg0.N = 16 := N_0; have := p.isLt; omega⟩

/-! ## The input blocks, read -/

theorem iblk0_row (c : Dev nD) (t : Fin cfg0.N) (p : Fin 1024) (k : Fin 512) :
    iblk m c 0 t (ix2 p k) = V m c main_arg0 (ix2 (row t p) k) := by
  obtain ⟨e0, e1, -⟩ := idx_facts t
  have h : ((cfg0.win 0).blk t).view.emb (ix2 p k) = ix2 (row t p) k := by
    funext a; apply Fin.ext
    match a with
    | ⟨0, _⟩ => show win0_0.index t (0 : Fin 2) * 1024 + 1 * p.val = t.val * 1024 + p.val; rw [e0]; omega
    | ⟨1, _⟩ => show win0_0.index t (1 : Fin 2) * 512 + 1 * k.val = k.val; rw [e1]; omega
  show V m c main_arg0 (((cfg0.win 0).blk t).view.emb (ix2 p k)) = _
  rw [h]

theorem iblk1_row (c : Dev nD) (t : Fin cfg0.N) (p : Fin 1024) (k : Fin 512) :
    iblk m c 1 t (ix2 p k) = V m c main_arg1 (ix2 (row t p) k) := by
  obtain ⟨-, -, e0, e1, -⟩ := idx_facts t
  have h : ((cfg0.win 1).blk t).view.emb (ix2 p k) = ix2 (row t p) k := by
    funext a; apply Fin.ext
    match a with
    | ⟨0, _⟩ => show win0_1.index t (0 : Fin 2) * 1024 + 1 * p.val = t.val * 1024 + p.val; rw [e0]; omega
    | ⟨1, _⟩ => show win0_1.index t (1 : Fin 2) * 512 + 1 * k.val = k.val; rw [e1]; omega
  show V m c main_arg1 (((cfg0.win 1).blk t).view.emb (ix2 p k)) = _
  rw [h]

theorem iblk2_row (c : Dev nD) (t : Fin cfg0.N) (p : Fin 1024) (k : Fin 512) :
    iblk m c 2 t (ix2 p k) = V m c main_arg2 (ix2 (row t p) k) := by
  obtain ⟨-, -, -, -, e0, e1, -⟩ := idx_facts t
  have h : ((cfg0.win 2).blk t).view.emb (ix2 p k) = ix2 (row t p) k := by
    funext a; apply Fin.ext
    match a with
    | ⟨0, _⟩ => show win0_2.index t (0 : Fin 2) * 1024 + 1 * p.val = t.val * 1024 + p.val; rw [e0]; omega
    | ⟨1, _⟩ => show win0_2.index t (1 : Fin 2) * 512 + 1 * k.val = k.val; rw [e1]; omega
  show V m c main_arg2 (((cfg0.win 2).blk t).view.emb (ix2 p k)) = _
  rw [h]

theorem iblk3_eq (c : Dev nD) (t : Fin cfg0.N) : (iblk m c 3 t : S512x2048.Idx → EReal) = V m c main_v1 := by
  obtain ⟨-, -, -, -, -, -, e0, e1, -⟩ := idx_facts t
  funext y
  have h : ((cfg0.win 3).blk t).view.emb y = y := by
    funext a; apply Fin.ext
    match a with
    | ⟨0, _⟩ => show win0_3.index t (0 : Fin 2) * 512 + 1 * (y 0).val = (y 0).val; rw [e0]; omega
    | ⟨1, _⟩ => show win0_3.index t (1 : Fin 2) * 2048 + 1 * (y 1).val = (y 1).val; rw [e1]; omega
  show V m c main_v1 (((cfg0.win 3).blk t).view.emb y) = _
  rw [h]

theorem iblk4_eq (c : Dev nD) (t : Fin cfg0.N) : (iblk m c 4 t : S512x2048.Idx → EReal) = V m c main_v3 := by
  obtain ⟨-, -, -, -, -, -, -, -, e0, e1, -⟩ := idx_facts t
  funext y
  have h : ((cfg0.win 4).blk t).view.emb y = y := by
    funext a; apply Fin.ext
    match a with
    | ⟨0, _⟩ => show win0_4.index t (0 : Fin 2) * 512 + 1 * (y 0).val = (y 0).val; rw [e0]; omega
    | ⟨1, _⟩ => show win0_4.index t (1 : Fin 2) * 2048 + 1 * (y 1).val = (y 1).val; rw [e1]; omega
  show V m c main_v3 (((cfg0.win 4).blk t).view.emb y) = _
  rw [h]

theorem iblk5_eq (c : Dev nD) (t : Fin cfg0.N) : (iblk m c 5 t : S2048.Idx → EReal) = V m c main_v4 := by
  obtain ⟨-, -, -, -, -, -, -, -, -, -, e0, -⟩ := idx_facts t
  funext y
  have h : ((cfg0.win 5).blk t).view.emb y = y := by
    funext a; apply Fin.ext
    match a with
    | ⟨0, _⟩ => show win0_5.index t (0 : Fin 1) * 2048 + 1 * (y 0).val = (y 0).val; rw [e0]; omega
  show V m c main_v4 (((cfg0.win 5).blk t).view.emb y) = _
  rw [h]

/-! ## What each point writes back -/

theorem cellAt_congr {xr xr' hr hr' : Fin 512 → EReal} {cv cv' : EReal} {W W' U U' : Mat} {b b' : Bias} (q : Fin 512)
    (h1 : ∀ k, xr k = xr' k) (h2 : ∀ k, hr k = hr' k) (h3 : cv = cv') (h4 : W = W') (h5 : U = U') (h6 : b = b') :
    cellAt xr hr cv W U b q = cellAt xr' hr' cv' W' U' b' q := by
  obtain rfl := funext h1; obtain rfl := funext h2; subst h3 h4 h5 h6; rfl

theorem hidAt_congr {xr xr' hr hr' : Fin 512 → EReal} {cv cv' : EReal} {W W' U U' : Mat} {b b' : Bias} (q : Fin 512)
    (h1 : ∀ k, xr k = xr' k) (h2 : ∀ k, hr k = hr' k) (h3 : cv = cv') (h4 : W = W') (h5 : U = U') (h6 : b = b') :
    hidAt xr hr cv W U b q = hidAt xr' hr' cv' W' U' b' q := by
  obtain rfl := funext h1; obtain rfl := funext h2; subst h3 h4 h5 h6; rfl

/-- The whole-batch new cell state of the arrays as the region finds them. -/
abbrev cellV (c : Dev nD) : Batch :=
  cellNew (V m c main_arg0) (V m c main_arg1) (V m c main_arg2) (V m c main_v1) (V m c main_v3) (V m c main_v4)
/-- The whole-batch new hidden state of the arrays as the region finds them. -/
abbrev hidV (c : Dev nD) : Batch :=
  hidNew (V m c main_arg0) (V m c main_arg1) (V m c main_arg2) (V m c main_v1) (V m c main_v3) (V m c main_v4)

theorem emb7 (t : Fin cfg0.N) (p : Fin 1024) (q : Fin 512) : ((cfg0.win 7).blk t).view.emb (ix2 p q) = ix2 (row t p) q := by
  obtain ⟨-, -, -, -, -, -, -, -, -, -, -, -, -, e0, e1⟩ := idx_facts t
  funext a; apply Fin.ext
  match a with
  | ⟨0, _⟩ => show win0_7.index t (0 : Fin 2) * 1024 + 1 * p.val = t.val * 1024 + p.val; rw [e0]; omega
  | ⟨1, _⟩ => show win0_7.index t (1 : Fin 2) * 512 + 1 * q.val = q.val; rw [e1]; omega

theorem emb6 (t : Fin cfg0.N) (p : Fin 1024) (q : Fin 512) : ((cfg0.win 6).blk t).view.emb (ix2 p q) = ix2 (row t p) q := by
  obtain ⟨-, -, -, -, -, -, -, -, -, -, -, e0, e1, -⟩ := idx_facts t
  funext a; apply Fin.ext
  match a with
  | ⟨0, _⟩ => show win0_6.index t (0 : Fin 2) * 1024 + 1 * p.val = t.val * 1024 + p.val; rw [e0]; omega
  | ⟨1, _⟩ => show win0_6.index t (1 : Fin 2) * 512 + 1 * q.val = q.val; rw [e1]; omega

/-- What point `t` writes back into the second result is block `t` of the whole-batch new cell state. -/
theorem flushedC_eq (c : Dev nD) (t : Fin cfg0.N) :
    (dats m 0 c).flushed 7 t = ((cfg0.win 7).blk t).view.read (Elt Ideal) (cellV m c) := by
  show (cfg0.win 7).cut (grid0.coords t) ((dats m 0 c).after 7 t) = _
  rw [after0_7, outC_eq]
  funext y
  obtain ⟨p, q, rfl⟩ : ∃ (p : Fin 1024) (q : Fin 512), y = ix2 p q := ⟨y 0, y 1, eq_ix2 y⟩
  refine (pay2_apply _ _ _ _ _ _ p q).trans ?_
  refine (cellAt_congr q (fun k => iblk0_row m c t p k) (fun k => iblk1_row m c t p k) (iblk2_row m c t p q)
    (iblk3_eq m c t) (iblk4_eq m c t) (iblk5_eq m c t)).trans ?_
  show _ = cellV m c (((cfg0.win 7).blk t).view.emb (ix2 p q))
  rw [emb7]
  rfl

/-- What point `t` writes back into the first result is block `t` of the whole-batch new hidden state. -/
theorem flushedH_eq (c : Dev nD) (t : Fin cfg0.N) :
    (dats m 0 c).flushed 6 t = ((cfg0.win 6).blk t).view.read (Elt Ideal) (hidV m c) := by
  show (cfg0.win 6).cut (grid0.coords t) ((dats m 0 c).after 6 t) = _
  rw [after0_6, outH_eq]
  funext y
  obtain ⟨p, q, rfl⟩ : ∃ (p : Fin 1024) (q : Fin 512), y = ix2 p q := ⟨y 0, y 1, eq_ix2 y⟩
  refine (pay3_apply _ _ _ _ _ _ p q).trans ?_
  refine (hidAt_congr q (fun k => iblk0_row m c t p k) (fun k => iblk1_row m c t p k) (iblk2_row m c t p q)
    (iblk3_eq m c t) (iblk4_eq m c t) (iblk5_eq m c t)).trans ?_
  show _ = hidV m c (((cfg0.win 6).blk t).view.emb (ix2 p q))
  rw [emb6]
  rfl

/-! ## The blocks tile the results -/

theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v5_1).slice (win0_7.rect t)).set ↔ _
  rw [View.set_slice_whole, Rect.mem_set_unit]
  exact Iff.rfl

theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v5_0).slice (win0_6.rect t)).set ↔ _
  rw [View.set_slice_whole, Rect.mem_set_unit]
  exact Iff.rfl

/-- The point whose block holds row `r`. -/
def pointOf (i : S16384x512.Idx) : Fin cfg0.N :=
  ⟨(i 0).val / 1024, by have h0 : (i 0).val < 16384 := (i 0).isLt; have h2 : cfg0.N = 16 := N_0; omega⟩

theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  refine ⟨pointOf i, flush0_7 _, ?_⟩
  rw [mem_blk7]
  obtain ⟨-, -, -, -, -, -, -, -, -, -, -, -, -, e0, e1⟩ := idx_facts (pointOf i)
  have hp : (pointOf i).val = (i 0).val / 1024 := rfl
  intro a
  match a with
  | ⟨0, _⟩ => show win0_7.index (pointOf i) (0 : Fin 2) * 1024 ≤ (i 0).val ∧ (i 0).val < win0_7.index (pointOf i) (0 : Fin 2) * 1024 + 1024; rw [e0, hp]; omega
  | ⟨1, _⟩ => show win0_7.index (pointOf i) (1 : Fin 2) * 512 ≤ (i 1).val ∧ (i 1).val < win0_7.index (pointOf i) (1 : Fin 2) * 512 + 512; rw [e1]; omega

theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  refine ⟨pointOf i, flush0_6 _, ?_⟩
  rw [mem_blk6]
  obtain ⟨-, -, -, -, -, -, -, -, -, -, -, e0, e1, -⟩ := idx_facts (pointOf i)
  have hp : (pointOf i).val = (i 0).val / 1024 := rfl
  intro a
  match a with
  | ⟨0, _⟩ => show win0_6.index (pointOf i) (0 : Fin 2) * 1024 ≤ (i 0).val ∧ (i 0).val < win0_6.index (pointOf i) (0 : Fin 2) * 1024 + 1024; rw [e0, hp]; omega
  | ⟨1, _⟩ => show win0_6.index (pointOf i) (1 : Fin 2) * 512 ≤ (i 1).val ∧ (i 1).val < win0_6.index (pointOf i) (1 : Fin 2) * 512 + 512; rw [e1]; omega

/-! ## The arrays the region finds, in the launch memory -/

/-- The fused input weights, recurrent weights and bias, of the launch memory. -/
abbrev Wc (c : Dev nD) : Mat :=
  concatenate S512x2048 1 [⟨S512x512, m ((c.tc : Thread nD τ).loc main_arg3)⟩, ⟨S512x512, m ((c.tc : Thread nD τ).loc main_arg6)⟩,
    ⟨S512x512, m ((c.tc : Thread nD τ).loc main_arg9)⟩, ⟨S512x512, m ((c.tc : Thread nD τ).loc main_arg12)⟩]
    concatenates_S512x512_S512x512_S512x512_S512x512_S512x2048_d1
abbrev Uc (c : Dev nD) : Mat :=
  concatenate S512x2048 1 [⟨S512x512, m ((c.tc : Thread nD τ).loc main_arg4)⟩, ⟨S512x512, m ((c.tc : Thread nD τ).loc main_arg7)⟩,
    ⟨S512x512, m ((c.tc : Thread nD τ).loc main_arg10)⟩, ⟨S512x512, m ((c.tc : Thread nD τ).loc main_arg13)⟩]
    concatenates_S512x512_S512x512_S512x512_S512x512_S512x2048_d1
abbrev bc (c : Dev nD) : Bias :=
  concatenate S2048 0 [⟨S512, m ((c.tc : Thread nD τ).loc main_arg5)⟩, ⟨S512, m ((c.tc : Thread nD τ).loc main_arg8)⟩,
    ⟨S512, m ((c.tc : Thread nD τ).loc main_arg11)⟩, ⟨S512, m ((c.tc : Thread nD τ).loc main_arg14)⟩]
    concatenates_S512_S512_S512_S512_S2048_d0

theorem V_W (c : Dev nD) : (V m c main_v1 : S512x2048.Idx → EReal) = Wc m c := by
  dsimp only [V, hostOps0]; after_results; rfl
theorem V_U (c : Dev nD) : (V m c main_v3 : S512x2048.Idx → EReal) = Uc m c := by
  dsimp only [V, hostOps0]; after_results; rfl
theorem V_b (c : Dev nD) : (V m c main_v4 : S2048.Idx → EReal) = bc m c := by
  dsimp only [V, hostOps0]; after_results; rfl

/-! ## The result arrays, and the run -/

theorem finalC (c : Dev nD) : (dats m 0 c).arrAt 7 cfg0.N
    = cellNew (m ((c.tc : Thread nD τ).loc main_arg0)) (m ((c.tc : Thread nD τ).loc main_arg1)) (m ((c.tc : Thread nD τ).loc main_arg2)) (Wc m c) (Uc m c) (bc m c) := by
  refine ((dats m 0 c).arrAt_eq_of_cover 7 (cellV m c) (fun t _ => flushedC_eq m c t) cover7).trans ?_
  show cellNew (V m c main_arg0) (V m c main_arg1) (V m c main_arg2) (V m c main_v1 : S512x2048.Idx → EReal) (V m c main_v3 : S512x2048.Idx → EReal) (V m c main_v4 : S2048.Idx → EReal) = _
  rw [V_W, V_U, V_b, V_of_ne m c main_arg0 (by decide) (by decide) (by decide) (by decide) (by decide),
    V_of_ne m c main_arg1 (by decide) (by decide) (by decide) (by decide) (by decide),
    V_of_ne m c main_arg2 (by decide) (by decide) (by decide) (by decide) (by decide)]

theorem finalH (c : Dev nD) : (dats m 0 c).arrAt 6 cfg0.N
    = hidNew (m ((c.tc : Thread nD τ).loc main_arg0)) (m ((c.tc : Thread nD τ).loc main_arg1)) (m ((c.tc : Thread nD τ).loc main_arg2)) (Wc m c) (Uc m c) (bc m c) := by
  refine ((dats m 0 c).arrAt_eq_of_cover 6 (hidV m c) (fun t _ => flushedH_eq m c t) cover6).trans ?_
  show hidNew (V m c main_arg0) (V m c main_arg1) (V m c main_arg2) (V m c main_v1 : S512x2048.Idx → EReal) (V m c main_v3 : S512x2048.Idx → EReal) (V m c main_v4 : S2048.Idx → EReal) = _
  rw [V_W, V_U, V_b, V_of_ne m c main_arg0 (by decide) (by decide) (by decide) (by decide) (by decide),
    V_of_ne m c main_arg1 (by decide) (by decide) (by decide) (by decide) (by decide),
    V_of_ne m c main_arg2 (by decide) (by decide) (by decide) (by decide) (by decide)]

/-- The run: every weakly fair execution of the idealized kernel's @main terminates with the two results at the new
    hidden and cell state of the launch memory's arrays, the arguments unchanged. -/
theorem run : θ_run defs (onTc (τ := τ) (main (F := Ideal))) ⟨m, fun _ => 0, ρ⟩ (fun r => ∀ c : Dev nD,
      r.2.mem ((c.tc : Thread nD τ).loc main_v5_0)
        = hidNew (m ((c.tc : Thread nD τ).loc main_arg0)) (m ((c.tc : Thread nD τ).loc main_arg1)) (m ((c.tc : Thread nD τ).loc main_arg2)) (Wc m c) (Uc m c) (bc m c)
      ∧ r.2.mem ((c.tc : Thread nD τ).loc main_v5_1)
        = cellNew (m ((c.tc : Thread nD τ).loc main_arg0)) (m ((c.tc : Thread nD τ).loc main_arg1)) (m ((c.tc : Thread nD τ).loc main_arg2)) (Wc m c) (Uc m c) (bc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (finalH m c), ((h c).1 7).trans (finalC m c), kept m r h c⟩) (run_main m ρ)

end Cert.KernelIdeal.Run

end
-- ==== Proof.RefValue.lean ====
/-
  The reference computes the LSTM step of the specification: its two results, read at row `r` and unit `q`, are the
  new hidden and cell state of that row for the fused weights and bias it concatenates. Its logistic is spelt
  `1 / (1 + exp (-z))` with the float literal `1.0`, which is the logistic function on the extended reals; its matrix
  products are the sums over the contracted coordinate; its slices of the 2048 pre-activation columns are the four
  gates' columns.
-/
import proofs.«179212_j21234318311760_2_alg».proof.Proof.Gen.ReferenceIdeal.Read
import proofs.«179212_j21234318311760_2_alg».proof.Proof.Spec

noncomputable section

namespace Cert.ReferenceIdeal.RefValue

open Cert.ReferenceIdeal Cert.ReferenceIdeal.Gen Cert.ReferenceIdeal.Read Cert.Lstm
open Idealize.ShloMosaic Idealize.ShloMosaic.ValueIdx

variable (x0 x1 x2 : (⟨S16384x512, .f32⟩ : BufTy).Contents (Elt Ideal))
  (x3 x4 : (⟨S512x512, .f32⟩ : BufTy).Contents (Elt Ideal)) (x5 : (⟨S512, .f32⟩ : BufTy).Contents (Elt Ideal))
  (x6 x7 : (⟨S512x512, .f32⟩ : BufTy).Contents (Elt Ideal)) (x8 : (⟨S512, .f32⟩ : BufTy).Contents (Elt Ideal))
  (x9 x10 : (⟨S512x512, .f32⟩ : BufTy).Contents (Elt Ideal)) (x11 : (⟨S512, .f32⟩ : BufTy).Contents (Elt Ideal))
  (x12 x13 : (⟨S512x512, .f32⟩ : BufTy).Contents (Elt Ideal)) (x14 : (⟨S512, .f32⟩ : BufTy).Contents (Elt Ideal))

/-- The reference's spelling of the logistic function, with the literal `1.0`, is the logistic function. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [ofBits_one]; rfl

/-- The reference's pre-activations at row `r` and fused column `j`. -/
theorem pre_apply (r : Fin 16384) (j : Fin 2048) :
    val_main_v8 (F := Ideal) x0 x1 x3 x4 x5 x6 x7 x8 x9 x10 x11 x12 x13 x14 (ix2 r j)
      = pre (fun k => x0 (ix2 r k)) (fun k => x1 (ix2 r k)) (val_main_v0 (F := Ideal) x3 x6 x9 x12)
          (val_main_v1 (F := Ideal) x4 x7 x10 x13) (val_main_v2 (F := Ideal) x5 x8 x11 x14) j := by
  have el3 : ∀ k : Fin 512, lidx_main_v3 (ix2 r j) k = ix2 r k := fun k => funext fun a => Fin.ext (by
    match a with | ⟨0, _⟩ => rfl | ⟨1, _⟩ => rfl)
  have er3 : ∀ k : Fin 512, ridx_main_v3 (ix2 r j) k = ix2 k j := fun k => funext fun a => Fin.ext (by
    match a with | ⟨0, _⟩ => rfl | ⟨1, _⟩ => rfl)
  have el4 : ∀ k : Fin 512, lidx_main_v4 (ix2 r j) k = ix2 r k := fun k => funext fun a => Fin.ext (by
    match a with | ⟨0, _⟩ => rfl | ⟨1, _⟩ => rfl)
  have er4 : ∀ k : Fin 512, ridx_main_v4 (ix2 r j) k = ix2 k j := fun k => funext fun a => Fin.ext (by
    match a with | ⟨0, _⟩ => rfl | ⟨1, _⟩ => rfl)
  have eb : idx_main_v6 (idx_main_v7 (ix2 r j)) = ix1 j := funext fun a => Fin.ext (by
    match a with | ⟨0, _⟩ => rfl)
  rw [val_main_v8_apply, val_main_v5_apply, val_main_v3_apply, val_main_v4_apply, val_main_v7_apply, val_main_v6_apply]
  simp only [el3, er3, el4, er4, eb]
  rfl

/-- The reference's slice of the pre-activations from column `o`, at row `r` and unit `q`: the gate's column. -/
theorem idx9 (r : Fin 16384) (q : Fin 512) : idx_main_v9 (ix2 r q) = ix2 r (gcol 0 (by decide) q) :=
  funext fun a => Fin.ext (by match a with | ⟨0, _⟩ => rfl | ⟨1, _⟩ => exact (Nat.zero_add _).symm)
theorem idx10 (r : Fin 16384) (q : Fin 512) : idx_main_v10 (ix2 r q) = ix2 r (gcol 512 (by decide) q) :=
  funext fun a => Fin.ext (by match a with | ⟨0, _⟩ => rfl | ⟨1, _⟩ => rfl)
theorem idx11 (r : Fin 16384) (q : Fin 512) : idx_main_v11 (ix2 r q) = ix2 r (gcol 1024 (by decide) q) :=
  funext fun a => Fin.ext (by match a with | ⟨0, _⟩ => rfl | ⟨1, _⟩ => rfl)
theorem idx12 (r : Fin 16384) (q : Fin 512) : idx_main_v12 (ix2 r q) = ix2 r (gcol 1536 (by decide) q) :=
  funext fun a => Fin.ext (by match a with | ⟨0, _⟩ => rfl | ⟨1, _⟩ => rfl)

/-- The input gate. -/
theorem gateI_apply (r : Fin 16384) (q : Fin 512) :
    val_main_v18 (F := Ideal) x0 x1 x3 x4 x5 x6 x7 x8 x9 x10 x11 x12 x13 x14 (ix2 r q)
      = Ideal.logistic (val_main_v8 (F := Ideal) x0 x1 x3 x4 x5 x6 x7 x8 x9 x10 x11 x12 x13 x14 (ix2 r (gcol 0 (by decide) q))) := by
  rw [val_main_v18_apply, val_main_v17_apply, val_main_cst_0_apply, val_main_v16_apply, val_main_v15_apply, val_main_cst_apply,
    val_main_v14_apply, val_main_v13_apply, val_main_v9_apply, idx9]
  exact logistic_spelt _

/-- The forget gate. -/
theorem gateF_apply (r : Fin 16384) (q : Fin 512) :
    val_main_v24 (F := Ideal) x0 x1 x3 x4 x5 x6 x7 x8 x9 x10 x11 x12 x13 x14 (ix2 r q)
      = Ideal.logistic (val_main_v8 (F := Ideal) x0 x1 x3 x4 x5 x6 x7 x8 x9 x10 x11 x12 x13 x14 (ix2 r (gcol 512 (by decide) q))) := by
  rw [val_main_v24_apply, val_main_v23_apply, val_main_cst_2_apply, val_main_v22_apply, val_main_v21_apply, val_main_cst_1_apply,
    val_main_v20_apply, val_main_v19_apply, val_main_v10_apply, idx10]
  exact logistic_spelt _

/-- The output gate. -/
theorem gateO_apply (r : Fin 16384) (q : Fin 512) :
    val_main_v34 (F := Ideal) x0 x1 x3 x4 x5 x6 x7 x8 x9 x10 x11 x12 x13 x14 (ix2 r q)
      = Ideal.logistic (val_main_v8 (F := Ideal) x0 x1 x3 x4 x5 x6 x7 x8 x9 x10 x11 x12 x13 x14 (ix2 r (gcol 1536 (by decide) q))) := by
  rw [val_main_v34_apply, val_main_v33_apply, val_main_cst_4_apply, val_main_v32_apply, val_main_v31_apply, val_main_cst_3_apply,
    val_main_v30_apply, val_main_v29_apply, val_main_v12_apply, idx12]
  exact logistic_spelt _

/-- The candidate. -/
theorem cand_apply (r : Fin 16384) (q : Fin 512) :
    val_main_v25 (F := Ideal) x0 x1 x3 x4 x5 x6 x7 x8 x9 x10 x11 x12 x13 x14 (ix2 r q)
      = Ideal.tanh (val_main_v8 (F := Ideal) x0 x1 x3 x4 x5 x6 x7 x8 x9 x10 x11 x12 x13 x14 (ix2 r (gcol 1024 (by decide) q))) := by
  rw [val_main_v25_apply, val_main_v11_apply, idx11]
  rfl

/-- The reference's second result is the new cell state. -/
theorem cell_apply (r : Fin 16384) (q : Fin 512) :
    val_main_v28 (F := Ideal) x0 x1 x2 x3 x4 x5 x6 x7 x8 x9 x10 x11 x12 x13 x14 (ix2 r q)
      = cellAt (fun k => x0 (ix2 r k)) (fun k => x1 (ix2 r k)) (x2 (ix2 r q)) (val_main_v0 (F := Ideal) x3 x6 x9 x12)
          (val_main_v1 (F := Ideal) x4 x7 x10 x13) (val_main_v2 (F := Ideal) x5 x8 x11 x14) q := by
  rw [val_main_v28_apply, val_main_v26_apply, val_main_v27_apply, gateF_apply, gateI_apply, cand_apply, pre_apply, pre_apply, pre_apply]
  rfl

/-- The reference's first result is the new hidden state. -/
theorem hid_apply (r : Fin 16384) (q : Fin 512) :
    val_main_v36 (F := Ideal) x0 x1 x2 x3 x4 x5 x6 x7 x8 x9 x10 x11 x12 x13 x14 (ix2 r q)
      = hidAt (fun k => x0 (ix2 r k)) (fun k => x1 (ix2 r k)) (x2 (ix2 r q)) (val_main_v0 (F := Ideal) x3 x6 x9 x12)
          (val_main_v1 (F := Ideal) x4 x7 x10 x13) (val_main_v2 (F := Ideal) x5 x8 x11 x14) q := by
  rw [val_main_v36_apply, gateO_apply, val_main_v35_apply, cell_apply, pre_apply]
  rfl

/-- Over the whole batch. -/
theorem cell_eq : val_main_v28 (F := Ideal) x0 x1 x2 x3 x4 x5 x6 x7 x8 x9 x10 x11 x12 x13 x14
    = cellNew x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 16384) (q : Fin 512), i = ix2 r q := ⟨i 0, i 1, eq_ix2 i⟩
  exact cell_apply x0 x1 x2 x3 x4 x5 x6 x7 x8 x9 x10 x11 x12 x13 x14 r q

theorem hid_eq : val_main_v36 (F := Ideal) x0 x1 x2 x3 x4 x5 x6 x7 x8 x9 x10 x11 x12 x13 x14
    = hidNew x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 16384) (q : Fin 512), i = ix2 r q := ⟨i 0, i 1, eq_ix2 i⟩
  exact hid_apply x0 x1 x2 x3 x4 x5 x6 x7 x8 x9 x10 x11 x12 x13 x14 r q

end Cert.ReferenceIdeal.RefValue

end
-- ==== Proof.lean ====
/-
  One step of an LSTM cell, as a Pallas kernel over blocks of 1024 rows against its jnp reference, on the extended
  reals: both compute, for every row `r` and unit `q`,
      c' r q = σ (z r (512 + q)) · c r q + σ (z r q) · tanh (z r (1024 + q)),   h' r q = σ (z r (1536 + q)) · tanh (c' r q),
  with z r j = ∑ k, x r k · W k j + ∑ k, h r k · U k j + b j over the fused weights `W`, `U` and bias `b` (the same
  concatenations of the twelve weight arguments in both programs; the kernel's casts of them and of the row blocks to
  bf16 are the identity here). The kernel's matrix products are onto a zero accumulator and the reference's are the
  host's: the same sums. The kernel's logistic is one operation and the reference's is spelt 1 / (1 + exp (-z)): one
  function. No law beyond these is needed, so the precondition is not used by the value claim.

  The three frames: the kernel's two programs (at the word-level and at the ideal instance) by the frame run of their
  one region (Proof/FrameBits.lean, Proof/FrameIdeal.lean); the reference's by its run. The ideal pass rewrote nothing,
  so there is nothing to preserve.
-/
import proofs.«179212_j21234318311760_2_alg».proof.Defs
import proofs.«179212_j21234318311760_2_alg».proof.Proof.Gen.Kernel
import proofs.«179212_j21234318311760_2_alg».proof.Proof.Gen.KernelIdeal
import proofs.«179212_j21234318311760_2_alg».proof.Proof.Gen.ReferenceIdeal
import proofs.«179212_j21234318311760_2_alg».proof.Proof.Gen.Pre_finite_inputs
import proofs.«179212_j21234318311760_2_alg».proof.Proof.FrameBits
import proofs.«179212_j21234318311760_2_alg».proof.Proof.KernelRun
import proofs.«179212_j21234318311760_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the fifteen arguments the idealized kernel ends with its results at the new hidden and
    cell state of its launch arrays, and the reference with its results at the same functions of its own. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v36_eq, Cert.ReferenceIdeal.RefValue.hid_eq,
      h0, h1, h2, h3, h4, h5, h6, h7, h8, h9, h10, h11, h12, h13, h14]
    rfl
  · obtain ⟨h0, h1, h2, h3, h4, h5, h6, h7, h8, h9, h10, h11, h12, h13, h14⟩ := hagree c
    rw [Cert.ReferenceIdeal.Read.val_main_v28_eq, Cert.ReferenceIdeal.RefValue.cell_eq,
      h0, h1, h2, h3, h4, h5, h6, h7, h8, h9, h10, h11, h12, h13, h14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
